-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 33
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S_, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S1024x1024, .bf16⟩
  | .hbm, ⟨31, _⟩ => ⟨S1x1024, .f32⟩
  | .hbm, ⟨32, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_cst_4 : Ref sig .tc := ⟨.hbm, 21, rfl⟩
abbrev main_v8 : Ref sig .tc := ⟨.hbm, 22, rfl⟩
abbrev main_v9 : Ref sig .tc := ⟨.hbm, 23, rfl⟩
abbrev main_cst_5 : Ref sig .tc := ⟨.hbm, 24, rfl⟩
abbrev main_v10 : Ref sig .tc := ⟨.hbm, 25, rfl⟩
abbrev main_v11 : Ref sig .tc := ⟨.hbm, 26, rfl⟩
abbrev main_cst_6 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S1024x1024 : S_.BroadcastsInDim S1024x1024 (![] : Fin 0 → Fin S1024x1024.rank)
  bitsLt_bf16_f32 : FTy.bits .bf16 < FTy.bits .f32
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S1024x1024, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1024x1024, .f32⟩
  | .hbm, ⟨16, _⟩ => ⟨S1024x1024, .f32⟩
  | .hbm, ⟨17, _⟩ => ⟨S_, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S16384x1024, .f32⟩
  | .hbm, ⟨33, _⟩ => ⟨S1x1024, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_cst_3 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_cst_6 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]

class Facts₀ : Prop where
  bcast_S_S1024x1024 : S_.BroadcastsInDim S1024x1024 (![] : Fin 0 → Fin S1024x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x1024_S16384x1024_1_0_0_1_n_n_wf : DotDims.WF S16384x1024 S1024x1024 S16384x1024 [1] [0] [0] [1] [] []

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf

class Facts : Prop extends Facts₀ where

variable [Facts]
-- ==== Proof.KernelBlock.lean ====
/-
  What the kernel body computes on one block, entry by entry.

  The body multiplies a 1024 × 1024 block of `x` (its change of float format is the identity on the extended reals) by
  the 1024 × 1024 weight operand into a zero accumulator, and adds the one bias row broadcast over the block's rows.
  At row `p` and column `q` of the block that is `Σ_k x₀[p, k] · w[k, q] + b₂[0, q]`: the product into the zero
  accumulator is the plain sum over the contracted axis, re-indexed from the product's own contraction index to
  `k : Fin 1024`.
-/
import proofs.«149374_j18897856102730_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.BinaryDense.Kernel

open Cert.KernelIdeal Cert.KernelIdeal.Gen Idealize.ShloMosaic Idealize.ShloMosaic.ValueIdx

/-- The left operand's index at output `(p, q)` and contraction index `k` has row `p`. -/
theorem lhs_row (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

/-- The right operand's index at output `(p, q)` and contraction index `k` has column `q`. -/
theorem rhs_col (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The block product into the zero accumulator, at `(p, q)`: the sum over `k` of `l[p, k] · r[k, q]`. -/
theorem matmul_at (l r : FVec Ideal S1024x1024 .bf16) (p q : Fin 1024) :
    matmul (F := Ideal) dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q)
      ((contrEquiv1 dot_S1024x1024_S1024x1024_S1024x1024_1_0_0_1_n_n 1024 rfl rfl).symm k) = ix2 p k := funext fun a => Fin.ext (by
    match a with
    | ⟨0, _⟩ => exact lhs_row _ _
    | ⟨1, _⟩ => exact (dot_S1024x1024_S1024x1024_S1024x1024_1_0_0_1_n_n.lhsIdx_val_of_single rfl _ _).trans hk)
  have er : dot_S1024x1024_S1024x1024_S1024x1024_1_0_0_1_n_n.rhsIdx (ix2 p q)
      ((contrEquiv1 dot_S1024x1024_S1024x1024_S1024x1024_1_0_0_1_n_n 1024 rfl rfl).symm k) = ix2 k q := funext fun a => Fin.ext (by
    match a with
    | ⟨0, _⟩ => exact (dot_S1024x1024_S1024x1024_S1024x1024_1_0_0_1_n_n.rhsIdx_val_of_single rfl _ _).trans hk
    | ⟨1, _⟩ => exact rhs_col _ _)
  rw [el, er]

/-- THE BODY'S STORED VALUE at `(p, q)`: the block of `x` against the weight operand, plus the bias row. -/
theorem payload_at (x0 : Vec Ideal S1024x1024 .f32) (x1 : Vec Ideal S1024x1024 .bf16) (x2 : Vec Ideal S1x1024 .f32) (p q : Fin 1024) :
    k0_pay1 (F := Ideal) x0 x1 x2 (ix2 p q) = (∑ k : Fin 1024, x0 (ix2 p k) * x1 (ix2 k q)) + x2 (ix2 (0 : Fin 1) q) := by
  simp only [k0_pay1]
  rw [addf_apply, matmul_at, broadcastTo_1b_ab_apply, shapeCast_self, shapeCast_self]
  rfl

end Cert.BinaryDense.Kernel

end
-- ==== Proof.BinaryDense.lean ====
/-
  The function both programs compute, and the one law between their two spellings of it.

  A weight entry `w` is squashed by the hard sigmoid `h = min 1 (max 0 ((w / 1 + 1) / 2))`, rounded to the nearest
  integer (ties to even), and sent to `1 · (2 · round h − 1)`: this is the binarized weight. The dense layer at row `r`
  and column `q` is `Σ_k x[r, k] · bin (W[k, q]) + b[q]`, the sum over the 1024 input features.

  One program rounds "straight through": it writes `h + (round h − h)` where the other writes `round h`. On the
  extended reals `h + (n − h) = n` fails at an infinite `h`; but `h` lies between 0 and 1 whatever `w` is (an infinite
  `w` is clipped too), so it is a real number, and then so is `round h`, and the two spellings agree at every `w`.
  No hypothesis on the inputs is used.
-/
import Idealize.ShloMosaic.PureOps.Ideal.Laws
import Idealize.ShloMosaic.Lib.ValueIdx
import Idealize.ShloMosaic.Lib.IdealHost

noncomputable section

namespace Cert.BinaryDense

open Idealize.ShloMosaic Idealize.ShloMosaic.ValueIdx

/-- The hard sigmoid of a weight: `(w / 1 + 1) / 2` clipped to `[0, 1]` (the float literals are `1.0`, `2.0`, `0.0`). -/
def hardSigmoid (w : EReal) : EReal :=
  min (Ideal.ofBits .f32 0x3F800000#32) (max (Ideal.ofBits .f32 0x00000000#32)
    (Ideal.div (Ideal.div w (Ideal.ofBits .f32 0x3F800000#32) + Ideal.ofBits .f32 0x3F800000#32) (Ideal.ofBits .f32 0x40000000#32)))

/-- The binarized weight: `1 · (2 · round (hardSigmoid w) − 1)`, rounding to nearest with ties to even. -/
def binarize (w : EReal) : EReal :=
  Ideal.ofBits .f32 0x3F800000#32
    * (Ideal.ofBits .f32 0x40000000#32 * Ideal.liftRound Ideal.roundHalfEven (hardSigmoid w) - Ideal.ofBits .f32 0x3F800000#32)

/-- The hard sigmoid is a real number at every extended real: it lies between `0` and `1`. -/
theorem hardSigmoid_real (w : EReal) : ∃ r : ℝ, hardSigmoid w = (r : EReal) := by
  have h0 : (0 : EReal) ≤ hardSigmoid w := by
    unfold hardSigmoid
    rw [Ideal.ofBits_one_f32, Ideal.ofBits_zero_f32]
    exact le_min zero_le_one (le_max_left _ _)
  have h1 : hardSigmoid w ≤ 1 := by
    unfold hardSigmoid
    rw [Ideal.ofBits_one_f32]
    exact min_le_left _ _
  have hb : hardSigmoid w ≠ ⊥ := ((EReal.bot_lt_coe 0).trans_le (by exact_mod_cast h0)).ne'
  have ht : hardSigmoid w ≠ ⊤ := (lt_of_le_of_lt (by exact_mod_cast h1) (EReal.coe_lt_top 1)).ne
  exact ⟨(hardSigmoid w).toReal, (EReal.coe_toReal ht hb).symm⟩

/-- ROUNDING STRAIGHT THROUGH IS ROUNDING: `h + (round h − h) = round h` at the hard sigmoid of any weight, because
    there both `h` and `round h` are real numbers. -/
theorem round_through (w : EReal) :
    hardSigmoid w + (Ideal.liftRound Ideal.roundHalfEven (hardSigmoid w) - hardSigmoid w)
      = Ideal.liftRound Ideal.roundHalfEven (hardSigmoid w) := by
  obtain ⟨r, hr⟩ := hardSigmoid_real w
  rw [hr, Ideal.liftRound_coe, ← EReal.coe_sub, ← EReal.coe_add]
  exact congrArg _ (by ring)

/-- The layer at row `r` and column `q`: the row of `x` against the binarized column of `W`, plus the bias. -/
def denseAt (x : FVec Ideal ⟨2, ![16384, 1024]⟩ .f32) (W : FVec Ideal ⟨2, ![1024, 1024]⟩ .f32) (b : FVec Ideal ⟨1, ![1024]⟩ .f32)
    (r : Fin 16384) (q : Fin 1024) : EReal :=
  (∑ k : Fin 1024, x (ix2 r k) * binarize (W (ix2 k q))) + b (ix1 q)

/-- The layer as one array, index by index. -/
def dense (x : FVec Ideal ⟨2, ![16384, 1024]⟩ .f32) (W : FVec Ideal ⟨2, ![1024, 1024]⟩ .f32) (b : FVec Ideal ⟨1, ![1024]⟩ .f32) :
    FVec Ideal ⟨2, ![16384, 1024]⟩ .f32 :=
  fun i => denseAt x W b (i 0) (i 1)

theorem dense_apply (x : FVec Ideal ⟨2, ![16384, 1024]⟩ .f32) (W : FVec Ideal ⟨2, ![1024, 1024]⟩ .f32) (b : FVec Ideal ⟨1, ![1024]⟩ .f32)
    (r : Fin 16384) (q : Fin 1024) : dense x W b (ix2 r q) = denseAt x W b r q := rfl

end Cert.BinaryDense

end
-- ==== Proof.KernelOperands.lean ====
/-
  What the kernel's call finds in its second and third operands.

  Before the call the host binarizes the weight matrix — `/ 1`, `+ 1`, `/ 2`, the clip to `[0, 1]`, the rounding to the
  nearest integer (ties to even), `2 · _ − 1`, `1 · _`, and a change of float format that is the identity on the extended
  reals — so the weight operand holds `BinaryDense.binarize` of each weight; and it reshapes the 1024 biases to one row of
  1024, so the bias operand at `(0, q)` is the bias at `q` (the two have the same row-major position).
-/
import proofs.«149374_j18897856102730_2_alg».proof.Proof.Gen.KernelIdeal.Frame
import proofs.«149374_j18897856102730_2_alg».proof.Proof.BinaryDense
import Idealize.ShloMosaic.Lib.StableHlo.Run
import Idealize.ShloMosaic.Lib.Pipeline.Value
import Idealize.ShloMosaic.Lib.ValueIdx

noncomputable section

namespace Cert.BinaryDense.Kernel

open Cert.KernelIdeal Cert.KernelIdeal.Gen Cert.BinaryDense
open Idealize.ShloMosaic Idealize.ShloMosaic.TcCoe Idealize.SL.Sem Idealize.ShloMosaic.StableHlo Idealize.ShloMosaic.ValueIdx

/-- The host's operations on the weight matrix before the call, as one function of the matrix. -/
def hostWeights {F : FTy → Type} [FloatOps F] (W : FVec F S1024x1024 .f32) : FVec F S1024x1024 .bf16 :=
  truncf .bf16 (mulf (broadcastInDim S1024x1024 ![] bcast_S_S1024x1024 (constant (F := F) S_ .f32 0x3F800000#32))
    (subf (mulf (broadcastInDim S1024x1024 ![] bcast_S_S1024x1024 (constant (F := F) S_ .f32 0x40000000#32))
      (Host.roundeven (minimumf (broadcastInDim S1024x1024 ![] bcast_S_S1024x1024 (id (constant (F := F) S_ .f32 0x3F800000#32)))
        (maximumf (broadcastInDim S1024x1024 ![] bcast_S_S1024x1024 (id (constant (F := F) S_ .f32 0x00000000#32)))
          (Host.divf (addf (Host.divf W (broadcastInDim S1024x1024 ![] bcast_S_S1024x1024 (constant (F := F) S_ .f32 0x3F800000#32)))
            (broadcastInDim S1024x1024 ![] bcast_S_S1024x1024 (constant (F := F) S_ .f32 0x3F800000#32)))
            (broadcastInDim S1024x1024 ![] bcast_S_S1024x1024 (constant (F := F) S_ .f32 0x40000000#32)))))))
      (broadcastInDim S1024x1024 ![] bcast_S_S1024x1024 (constant (F := F) S_ .f32 0x3F800000#32)))) bitsLt_bf16_f32

/-- At an entry it is the binarized weight: every operation is entry by entry and the scalar broadcasts read their scalar. -/
theorem hostWeights_apply (W : FVec Ideal S1024x1024 .f32) (j : S1024x1024.Idx) :
    hostWeights (F := Ideal) W j = binarize (W j) := rfl

variable (m : (ℓ : Loc nD τ sig) → Buf (Elt Ideal) ℓ)

/-- The weight operand, as the call finds it, is the host's function of the weight argument. -/
theorem weights_found (c : Dev nD) :
    (V m c main_v14 : S1024x1024.Idx → EReal) = hostWeights (F := Ideal) (m ((c : Thread nD τ).loc main_arg1)) := by
  dsimp only [V]
  simp only [hostOps0, hostOps0_1, hostOps0_2, hostOps0_3, List.flatten_cons, List.flatten_nil, List.append_nil,
    List.cons_append, List.nil_append]
  after_results
  rfl

/-- The bias operand, as the call finds it, is the bias argument viewed as one row. -/
theorem bias_found (c : Dev nD) :
    (V m c main_v15 : S1x1024.Idx → EReal) = shapeCast S1x1024 (m ((c : Thread nD τ).loc main_arg2)) shapeCasts_S1024_S1x1024 := by
  dsimp only [V]
  simp only [hostOps0, hostOps0_1, hostOps0_2, hostOps0_3, List.flatten_cons, List.flatten_nil, List.append_nil,
    List.cons_append, List.nil_append]
  after_results
  rfl

/-- The weight operand at an entry is the binarized weight there. -/
theorem weights_at (c : Dev nD) (j : S1024x1024.Idx) :
    (V m c main_v14 : S1024x1024.Idx → EReal) j
      = binarize ((m ((c : Thread nD τ).loc main_arg1) : S1024x1024.Idx → EReal) j) := by
  rw [weights_found]
  exact hostWeights_apply _ j

/-- The bias operand at `(0, q)` is the bias at `q`. -/
theorem bias_at (c : Dev nD) (q : Fin 1024) :
    (V m c main_v15 : S1x1024.Idx → EReal) (ix2 (0 : Fin 1) q)
      = (m ((c : Thread nD τ).loc main_arg2) : S1024.Idx → EReal) (ix1 q) := by
  rw [bias_found]
  refine shapeCast_apply _ _ _ _ ?_
  show (S1024.rowMajor (ix1 q)).val = (S1x1024.rowMajor (ix2 (0 : Fin 1) q)).val
  rw [Shape.rowMajor_val_one, Shape.rowMajor_val_two]
  show q.val = 0 * 1024 + q.val
  omega

end Cert.BinaryDense.Kernel

end
-- ==== Proof.KernelDense.lean ====
/-
  The kernel's result array is the layer `BinaryDense.dense` of its three arguments.

  Grid point `t` (of 16) takes rows `1024 t … 1024 t + 1023` of `x`, the whole weight operand and the one bias row, and
  writes back rows `1024 t … 1024 t + 1023` of the result. Entry `(p, q)` of what it writes is
  `Σ_k x[1024 t + p, k] · bin W[k, q] + b[q]` — the layer at `(1024 t + p, q)` — and the sixteen row blocks cover the
  16384 rows: row `r` lies in block `r / 1024`.
-/
import proofs.«149374_j18897856102730_2_alg».proof.Proof.Gen.KernelIdeal.Value
import proofs.«149374_j18897856102730_2_alg».proof.Proof.KernelBlock
import proofs.«149374_j18897856102730_2_alg».proof.Proof.KernelOperands

set_option maxRecDepth 16384

noncomputable section

namespace Cert.BinaryDense.Kernel

open Cert.KernelIdeal Cert.KernelIdeal.Gen Cert.BinaryDense
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The four index maps, decided over the sixteen grid points: `x` and the result move down one block of rows per
    point; the weight operand and the bias row stay at block `(0, 0)`. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Entry `(p, k)` of the block of `x` at point `t` is `x[1024 t + p, k]`. -/
theorem xblock_at (c : Dev nD) (t : Fin cfg0.N) (p k : Fin 1024) (r : Fin 16384) (hr : r.val = t.val * 1024 + p.val) :
    (iblk m c 0 t : S1024x1024.Idx → EReal) (ix2 p k)
      = (m ((c : Thread nD τ).loc main_arg0) : S16384x1024.Idx → EReal) (ix2 r k) := by
  obtain ⟨e0, e1, -⟩ := index_facts t
  unfold iblk
  rw [View.read_apply]
  show V m c main_arg0 _ = _
  rw [V_main_arg0]
  refine congrArg _ (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- Entry `(k, q)` of the weight block at any point is the binarized weight `bin W[k, q]`. -/
theorem wblock_at (c : Dev nD) (t : Fin cfg0.N) (k q : Fin 1024) :
    (iblk m c 1 t : S1024x1024.Idx → EReal) (ix2 k q)
      = binarize ((m ((c : Thread nD τ).loc main_arg1) : S1024x1024.Idx → EReal) (ix2 k q)) := by
  obtain ⟨-, -, e2, e3, -⟩ := index_facts t
  unfold iblk
  rw [View.read_apply]
  show V m c main_v14 _ = _
  refine (weights_at m c _).trans (congrArg (fun j => binarize ((m ((c : Thread nD τ).loc main_arg1) : S1024x1024.Idx → EReal) j))
    (funext fun a => Fin.ext ?_))
  match a with
  | ⟨0, _⟩ => show win0_1.index t (0 : Fin 2) * 1024 + 1 * k.val = k.val; omega
  | ⟨1, _⟩ => show win0_1.index t (1 : Fin 2) * 1024 + 1 * q.val = q.val; omega

/-- Entry `(0, q)` of the bias block at any point is the bias `b[q]`. -/
theorem bblock_at (c : Dev nD) (t : Fin cfg0.N) (q : Fin 1024) :
    (iblk m c 2 t : S1x1024.Idx → EReal) (ix2 (0 : Fin 1) q)
      = (m ((c : Thread nD τ).loc main_arg2) : S1024.Idx → EReal) (ix1 q) := by
  obtain ⟨-, -, -, -, e4, e5, -⟩ := index_facts t
  unfold iblk
  rw [View.read_apply]
  show V m c main_v15 _ = _
  have hemb : ((cfg0.win 2).blk t).view.emb (ix2 (0 : Fin 1) q) = ix2 (0 : Fin 1) q := funext fun a => Fin.ext (by
    match a with
    | ⟨0, _⟩ => show win0_2.index t (0 : Fin 2) * 1 + 1 * 0 = 0; omega
    | ⟨1, _⟩ => show win0_2.index t (1 : Fin 2) * 1024 + 1 * q.val = q.val; omega)
  rw [hemb]
  exact bias_at m c q

/-- WHAT POINT `t` WRITES BACK is block `t` of the layer of the argument arrays. -/
theorem flushed_eq (c : Dev nD) (t : Fin cfg0.N) :
    (dats m 0 c).flushed 3 t = ((cfg0.win 3).blk t).view.read (Elt Ideal)
      (dense (m ((c : Thread nD τ).loc main_arg0)) (m ((c : Thread nD τ).loc main_arg1)) (m ((c : Thread nD τ).loc main_arg2))) := by
  rw [Cert.KernelIdeal.Value.flushed3]
  unfold out0_3
  rw [View.canon_unit_zero zero_offsets]
  simp only [View.ld_unit_zero (S := S1024x1024) zero_offsets, View.ld_unit_zero (S := S1x1024) zero_offsets]
  funext y
  obtain ⟨p, q, rfl⟩ : ∃ (p q : Fin 1024), y = ix2 p q := ⟨y 0, y 1, eq_ix2 y⟩
  obtain ⟨-, -, -, -, -, -, e6, e7⟩ := index_facts t
  have ht : t.val < 16 := by have := t.isLt; have hN : cfg0.N = 16 := N_0; omega
  have hemb : ((cfg0.win 3).blk t).view.emb (ix2 p q) = ix2 (⟨t.val * 1024 + p.val, by omega⟩ : Fin 16384) q :=
    funext fun a => Fin.ext (by
      match a with
      | ⟨0, _⟩ => show win0_3.index t (0 : Fin 2) * 1024 + 1 * p.val = t.val * 1024 + p.val; omega
      | ⟨1, _⟩ => show win0_3.index t (1 : Fin 2) * 1024 + 1 * q.val = q.val; omega)
  show k0_pay1 (F := Ideal) (iblk m c 0 t) (iblk m c 1 t) (iblk m c 2 t) (ix2 p q)
    = dense (m ((c : Thread nD τ).loc main_arg0)) (m ((c : Thread nD τ).loc main_arg1)) (m ((c : Thread nD τ).loc main_arg2))
        (((cfg0.win 3).blk t).view.emb (ix2 p q))
  rw [hemb, dense_apply, payload_at]
  unfold denseAt
  refine congrArg₂ (· + ·) (Finset.sum_congr rfl fun k _ => ?_) (bblock_at m c t q)
  rw [xblock_at m c t p k ⟨t.val * 1024 + p.val, by omega⟩ rfl, wblock_at m c t k q]

/-- An index of the result array is in point `t`'s block iff each coordinate is in the block's range on its axis. -/
theorem mem_block (t : Fin cfg0.N) (i : S16384x1024.Idx) :
    i ∈ ((cfg0.win 3).blk t).view.set ↔ ∀ a : Fin 2, win0_3.index t a * S1024x1024.size a ≤ (i a).val
      ∧ (i a).val < win0_3.index t a * S1024x1024.size a + S1024x1024.size a := by
  show i ∈ ((View.whole main_v16).slice (win0_3.rect t)).set ↔ _
  rw [View.set_slice_whole, Rect.mem_set_unit]
  exact Iff.rfl

/-- THE RESULT ARRAY after the run is the layer: every row lies in the block of the point `row / 1024`. -/
theorem final (c : Dev nD) : (dats m 0 c).arrAt 3 cfg0.N
    = dense (m ((c : Thread nD τ).loc main_arg0)) (m ((c : Thread nD τ).loc main_arg1)) (m ((c : Thread nD τ).loc main_arg2)) :=
  (dats m 0 c).arrAt_eq_of_cover 3 _ (fun t _ => flushed_eq m c t) fun i => by
    have hi0 : (i 0).val < 16384 := (i 0).isLt
    have hi1 : (i 1).val < 1024 := (i 1).isLt
    have hN : cfg0.N = 16 := N_0
    obtain ⟨t, ht⟩ : ∃ t : Fin cfg0.N, t.val = (i 0).val / 1024 := ⟨⟨(i 0).val / 1024, by rw [hN]; omega⟩, rfl⟩
    obtain ⟨-, -, -, -, -, -, e6, e7⟩ := index_facts t
    refine ⟨t, flush0_3 t, ?_⟩
    rw [mem_block]
    intro a
    match a with
    | ⟨0, _⟩ =>
      show win0_3.index t (0 : Fin 2) * 1024 ≤ (i 0).val ∧ (i 0).val < win0_3.index t (0 : Fin 2) * 1024 + 1024
      omega
    | ⟨1, _⟩ =>
      show win0_3.index t (1 : Fin 2) * 1024 ≤ (i 1).val ∧ (i 1).val < win0_3.index t (1 : Fin 2) * 1024 + 1024
      omega

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v16)
        = dense (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.BinaryDense.Kernel

end
-- ==== Proof.ReferenceDense.lean ====
/-
  The reference computes the layer `BinaryDense.dense`.

  Read one operation at a time: the weight matrix goes through `/ 1`, `+ 1`, `/ 2`, the clip to `[0, 1]` (a maximum
  with `0`, then a minimum with `1`) — that is the hard sigmoid —, is rounded straight through
  (`h + (round h − h)`, which is `round h` by `BinaryDense.round_through`), doubled, lowered by one and multiplied by
  one: the binarized weight. The product with `x` contracts the 1024 input features, and the bias row is broadcast down
  the 16384 rows.
-/
import proofs.«149374_j18897856102730_2_alg».proof.Proof.Gen.ReferenceIdeal.Read
import proofs.«149374_j18897856102730_2_alg».proof.Proof.BinaryDense

noncomputable section

namespace Cert.BinaryDense.Reference

open Cert.ReferenceIdeal Cert.ReferenceIdeal.Read Cert.BinaryDense Idealize.ShloMosaic Idealize.ShloMosaic.ValueIdx

/-- The clipped value at an entry is the hard sigmoid of the weight there. -/
theorem clip_stage (W : FVec Ideal S1024x1024 .f32) (j : S1024x1024.Idx) :
    val_main_v6 (F := Ideal) W j = hardSigmoid (W j) := by
  simp only [val_main_v6_apply, val_main_call0_v4_apply, val_main_call0_v3_apply, val_main_cst_3_apply,
    val_main_call0_v2_apply, val_main_call0_v1_apply, val_main_call0_v0_apply, val_main_cst_2_apply,
    val_main_v5_apply, val_main_v4_apply, val_main_cst_1_apply, val_main_v3_apply, val_main_v2_apply, val_main_cst_0_apply,
    val_main_v1_apply, val_main_v0_apply, val_main_cst_apply,
    Ideal.minimumf_def, Ideal.maximumf_def, Ideal.hostDivf_def, Ideal.addf_def, Ideal.ofBits_def]
  rfl

/-- The matrix the product takes at an entry is the binarized weight there: the straight-through rounding is the rounding. -/
theorem weight_stage (W : FVec Ideal S1024x1024 .f32) (j : S1024x1024.Idx) :
    val_main_v15 (F := Ideal) W j = binarize (W j) := by
  simp only [val_main_v15_apply, val_main_v14_apply, val_main_cst_6_apply, val_main_v13_apply, val_main_v12_apply,
    val_main_cst_5_apply, val_main_v11_apply, val_main_v10_apply, val_main_cst_4_apply, val_main_v9_apply,
    val_main_v8_apply, val_main_v7_apply, clip_stage, Ideal.mulf_def, Ideal.subf_def, Ideal.addf_def,
    Ideal.hostUnary_roundeven_def, Ideal.ofBits_def, round_through]
  rfl

/-- The reference's result array is the layer of its three arguments. -/
theorem result_eq (x : FVec Ideal S16384x1024 .f32) (W : FVec Ideal S1024x1024 .f32) (b : FVec Ideal S1024 .f32) :
    val_main_v19 (F := Ideal) x W b = dense x W b := by
  funext i
  obtain ⟨r, q, rfl⟩ : ∃ (r : Fin 16384) (q : Fin 1024), i = ix2 r q := ⟨i 0, i 1, eq_ix2 i⟩
  rw [dense_apply, val_main_v19_apply, val_main_v16_apply, val_main_v18_apply, val_main_v17_apply]
  have el : ∀ k : Fin 1024, lidx_main_v16 (ix2 r q) k = ix2 r k := fun k => funext fun a => by
    match a with | ⟨0, _⟩ => rfl | ⟨1, _⟩ => rfl
  have er : ∀ k : Fin 1024, ridx_main_v16 (ix2 r q) k = ix2 k q := fun k => funext fun a => by
    match a with | ⟨0, _⟩ => rfl | ⟨1, _⟩ => rfl
  have eb : idx_main_v17 (idx_main_v18 (ix2 r q)) = ix1 q := funext fun a => by
    match a with | ⟨0, _⟩ => rfl
  simp only [weight_stage, el, er, eb, Ideal.addf_def]
  rfl

end Cert.BinaryDense.Reference

end
-- ==== Proof.lean ====
/-
  A dense layer with binarized weights: `out[r, q] = Σ_k x[r, k] · bin (W[k, q]) + b[q]`, where
  `bin w = 1 · (2 · round (min 1 (max 0 ((w / 1 + 1) / 2))) − 1)` and `round` is to the nearest integer, ties to even.

  The kernel binarizes `W` on the host, then multiplies 1024-row blocks of `x` by the binarized matrix into a zero
  accumulator and adds the bias row, one block per grid point; the reference binarizes `W` with the rounding written
  "straight through" (`h + (round h − h)`), contracts `x` with it in one product and adds the broadcast bias. On the
  extended reals the two are one function (`BinaryDense.dense`): changes of float format are the identity, a product into
  a zero accumulator is the plain sum over the contracted axis, and `h + (round h − h) = round h` because the clipped
  `h` is a real number between 0 and 1 whatever the weight is (`BinaryDense.round_through`). The finiteness of the inputs
  is not used.

  The three frames are the programs' runs with the result dropped; the idealization rewrote nothing, so `preserves` is
  `True`; `algebraic` sets the kernel's run (`BinaryDense.Kernel.run`: its sixteen row blocks cover the result) beside
  the reference's run read one operation at a time (`BinaryDense.Reference.result_eq`).
-/
import proofs.«149374_j18897856102730_2_alg».proof.Defs
import proofs.«149374_j18897856102730_2_alg».proof.Proof.Gen.Kernel
import proofs.«149374_j18897856102730_2_alg».proof.Proof.Gen.Kernel.Skeleton
import proofs.«149374_j18897856102730_2_alg».proof.Proof.Gen.Kernel.Launch
import proofs.«149374_j18897856102730_2_alg».proof.Proof.Gen.Kernel.Points
import proofs.«149374_j18897856102730_2_alg».proof.Proof.Gen.Kernel.Frame
import proofs.«149374_j18897856102730_2_alg».proof.Proof.Gen.KernelIdeal
import proofs.«149374_j18897856102730_2_alg».proof.Proof.Gen.KernelIdeal.Skeleton
import proofs.«149374_j18897856102730_2_alg».proof.Proof.Gen.KernelIdeal.Launch
import proofs.«149374_j18897856102730_2_alg».proof.Proof.Gen.KernelIdeal.Points
import proofs.«149374_j18897856102730_2_alg».proof.Proof.Gen.KernelIdeal.Frame
import proofs.«149374_j18897856102730_2_alg».proof.Proof.Gen.ReferenceIdeal
import proofs.«149374_j18897856102730_2_alg».proof.Proof.Gen.Pre_finite_inputs
import proofs.«149374_j18897856102730_2_alg».proof.Proof.Gen.KernelIdeal.Value
import proofs.«149374_j18897856102730_2_alg».proof.Proof.Gen.ReferenceIdeal.Run
import proofs.«149374_j18897856102730_2_alg».proof.Proof.Gen.ReferenceIdeal.Read
import proofs.«149374_j18897856102730_2_alg».proof.Proof.KernelDense
import proofs.«149374_j18897856102730_2_alg».proof.Proof.ReferenceDense
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the layer of the (agreeing) arguments. -/
theorem algebraic : Cert.algebraic_KernelIdeal_ReferenceIdeal := by
  intro m ρ m' ρ' _ hagree
  refine ⟨fun c => Cert.BinaryDense.dense (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2)),
    Cert.BinaryDense.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.BinaryDense.Reference.result_eq,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
